-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x600000 32) (main_arg2 : FVec F S600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x64 : Shape := ⟨2, ![100000, 64]⟩
abbrev S5000x64 : Shape := ⟨2, ![5000, 64]⟩
abbrev S700000x64 : Shape := ⟨2, ![700000, 64]⟩
abbrev S1x64 : Shape := ⟨2, ![1, 64]⟩

abbrev nBuf : Space → Nat
  | .hbm => 87
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S_, .i32⟩
  | .hbm, ⟨40, _⟩ => ⟨S700000, .i32⟩
  | .hbm, ⟨41, _⟩ => ⟨S700000, .i1⟩
  | .hbm, ⟨42, _⟩ => ⟨S_, .i32⟩
  | .hbm, ⟨43, _⟩ => ⟨S700000, .i32⟩
  | .hbm, ⟨44, _⟩ => ⟨S700000, .i32⟩
  | .hbm, ⟨45, _⟩ => ⟨S700000, .i32⟩
  | .hbm, ⟨46, _⟩ => ⟨S700000x1, .i32⟩
  | .hbm, ⟨47, _⟩ => ⟨S700000, .f32⟩
  | .hbm, ⟨48, _⟩ => ⟨S700000, .f32⟩
  | .hbm, ⟨49, _⟩ => ⟨S100000x128, .f32⟩
  | .hbm, ⟨50, _⟩ => ⟨S_, .i32⟩
  | .hbm, ⟨51, _⟩ => ⟨S700000, .i32⟩
  | .hbm, ⟨52, _⟩ => ⟨S700000, .i1⟩
  | .hbm, ⟨53, _⟩ => ⟨S_, .i32⟩
  | .hbm, ⟨54, _⟩ => ⟨S700000, .i32⟩
  | .hbm, ⟨55, _⟩ => ⟨S700000, .i32⟩
  | .hbm, ⟨56, _⟩ => ⟨S700000, .i32⟩
  | .hbm, ⟨57, _⟩ => ⟨S700000x1, .i32⟩
  | .hbm, ⟨58, _⟩ => ⟨S700000x128, .f32⟩
  | .hbm, ⟨59, _⟩ => ⟨S700000x1, .f32⟩
  | .hbm, ⟨60, _⟩ => ⟨S700000x128, .f32⟩
  | .hbm, ⟨61, _⟩ => ⟨S700000x128, .f32⟩
  | .hbm, ⟨62, _⟩ => ⟨S_, .f32⟩
  | .hbm, ⟨63, _⟩ => ⟨S100000x128, .f32⟩
  | .hbm, ⟨64, _⟩ => ⟨S700000x1, .i32⟩
  | .hbm, ⟨65, _⟩ => ⟨S100000x128, .f32⟩
  | .hbm, ⟨66, _⟩ => ⟨S1x128, .f32⟩
  | .hbm, ⟨67, _⟩ => ⟨S100000x64, .f32⟩
  | .hbm, ⟨68, _⟩ => ⟨S_, .i32⟩
  | .hbm, ⟨69, _⟩ => ⟨S700000, .i32⟩
  | .hbm, ⟨70, _⟩ => ⟨S700000, .i1⟩
  | .hbm, ⟨71, _⟩ => ⟨S_, .i32⟩
  | .hbm, ⟨72, _⟩ => ⟨S700000, .i32⟩
  | .hbm, ⟨73, _⟩ => ⟨S700000, .i32⟩
  | .hbm, ⟨74, _⟩ => ⟨S700000, .i32⟩
  | .hbm, ⟨75, _⟩ => ⟨S700000x1, .i32⟩
  | .hbm, ⟨76, _⟩ => ⟨S700000x64, .f32⟩
  | .hbm, ⟨77, _⟩ => ⟨S700000x1, .f32⟩
  | .hbm, ⟨78, _⟩ => ⟨S700000x64, .f32⟩
  | .hbm, ⟨79, _⟩ => ⟨S700000x64, .f32⟩
  | .hbm, ⟨80, _⟩ => ⟨S_, .f32⟩
  | .hbm, ⟨81, _⟩ => ⟨S100000x64, .f32⟩
  | .hbm, ⟨82, _⟩ => ⟨S700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S_, .f32⟩
  | .hbm, ⟨15, _⟩ => ⟨S100000, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S700000, .f32⟩
  | .hbm, ⟨39, _⟩ => ⟨S_, .i32⟩
  | .hbm, ⟨40, _⟩ => ⟨S700000, .i32⟩
  | .hbm, ⟨41, _⟩ => ⟨S700000, .i1⟩
  | .hbm, ⟨42, _⟩ => ⟨S_, .i32⟩
  | .hbm, ⟨43, _⟩ => ⟨S700000, .i32⟩
  | .hbm, ⟨44, _⟩ => ⟨S700000, .i32⟩
  | .hbm, ⟨45, _⟩ => ⟨S700000, .i32⟩
  | .hbm, ⟨46, _⟩ => ⟨S700000x1, .i32⟩
  | .hbm, ⟨47, _⟩ => ⟨S700000, .f32⟩
  | .hbm, ⟨48, _⟩ => ⟨S700000, .f32⟩
  | .hbm, ⟨49, _⟩ => ⟨S100000x128, .f32⟩
  | .hbm, ⟨50, _⟩ => ⟨S_, .i32⟩
  | .hbm, ⟨51, _⟩ => ⟨S700000, .i32⟩
  | .hbm, ⟨52, _⟩ => ⟨S700000, .i1⟩
  | .hbm, ⟨53, _⟩ => ⟨S_, .i32⟩
  | .hbm, ⟨54, _⟩ => ⟨S700000, .i32⟩
  | .hbm, ⟨55, _⟩ => ⟨S700000, .i32⟩
  | .hbm, ⟨56, _⟩ => ⟨S700000, .i32⟩
  | .hbm, ⟨57, _⟩ => ⟨S700000x1, .i32⟩
  | .hbm, ⟨58, _⟩ => ⟨S700000x128, .f32⟩
  | .hbm, ⟨59, _⟩ => ⟨S700000x1, .f32⟩
  | .hbm, ⟨60, _⟩ => ⟨S700000x128, .f32⟩
  | .hbm, ⟨61, _⟩ => ⟨S700000x128, .f32⟩
  | .hbm, ⟨62, _⟩ => ⟨S_, .f32⟩
  | .hbm, ⟨63, _⟩ => ⟨S100000x128, .f32⟩
  | .hbm, ⟨64, _⟩ => ⟨S700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000, .f32⟩
  | .hbm, ⟨74, _⟩ => ⟨S700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S700000, .i32⟩
  | .hbm, ⟨86, _⟩ => ⟨S700000, .i1⟩
  | .hbm, ⟨87, _⟩ => ⟨S_, .i32⟩
  | .hbm, ⟨88, _⟩ => ⟨S700000, .i32⟩
  | .hbm, ⟨89, _⟩ => ⟨S700000, .i32⟩
  | .hbm, ⟨90, _⟩ => ⟨S700000, .i32⟩
  | .hbm, ⟨91, _⟩ => ⟨S700000x1, .i32⟩
  | .hbm, ⟨92, _⟩ => ⟨S700000, .f32⟩
  | .hbm, ⟨93, _⟩ => ⟨S700000, .f32⟩
  | .hbm, ⟨94, _⟩ => ⟨S_, .i32⟩
  | .hbm, ⟨95, _⟩ => ⟨S700000, .i32⟩
  | .hbm, ⟨96, _⟩ => ⟨S700000, .i1⟩
  | .hbm, ⟨97, _⟩ => ⟨S_, .i32⟩
  | .hbm, ⟨98, _⟩ => ⟨S700000, .i32⟩
  | .hbm, ⟨99, _⟩ => ⟨S700000, .i32⟩
  | .hbm, ⟨100, _⟩ => ⟨S700000, .i32⟩
  | .hbm, ⟨101, _⟩ => ⟨S700000x1, .i32⟩
  | .hbm, ⟨102, _⟩ => ⟨S700000, .f32⟩
  | .hbm, ⟨103, _⟩ => ⟨S700000, .f32⟩
  | .hbm, ⟨104, _⟩ => ⟨S100000x64, .f32⟩
  | .hbm, ⟨105, _⟩ => ⟨S_, .i32⟩
  | .hbm, ⟨106, _⟩ => ⟨S700000, .i32⟩
  | .hbm, ⟨107, _⟩ => ⟨S700000, .i1⟩
  | .hbm, ⟨108, _⟩ => ⟨S_, .i32⟩
  | .hbm, ⟨109, _⟩ => ⟨S700000, .i32⟩
  | .hbm, ⟨110, _⟩ => ⟨S700000, .i32⟩
  | .hbm, ⟨111, _⟩ => ⟨S700000, .i32⟩
  | .hbm, ⟨112, _⟩ => ⟨S700000x1, .i32⟩
  | .hbm, ⟨113, _⟩ => ⟨S700000x64, .f32⟩
  | .hbm, ⟨114, _⟩ => ⟨S700000x1, .f32⟩
  | .hbm, ⟨115, _⟩ => ⟨S700000x64, .f32⟩
  | .hbm, ⟨116, _⟩ => ⟨S700000x64, .f32⟩
  | .hbm, ⟨117, _⟩ => ⟨S_, .f32⟩
  | .hbm, ⟨118, _⟩ => ⟨S100000x64, .f32⟩
  | .hbm, ⟨119, _⟩ => ⟨S700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

class Facts : Prop extends Facts₀ where

variable [Facts]
-- ==== Proof.KernelRun.lean ====
/-
  The idealized kernel's run with its RESULT in the post.

  @main is seven segments: three stretches of host operations, the first matrix-product region, a stretch of host
  operations, the second region, and a last stretch. The buffer contents at the segment boundaries are a fold from the
  launch memory: `W0` the launch contents, `W1 … W3` after the first three stretches, `W4` after the first region (its
  output array at what the region's write-backs leave, every other buffer as entered), `W5` after the next stretch,
  `W6` after the second region, `W7` at the return. Every weakly fair execution terminates with EVERY unscoped buffer
  at `W7`; here the result buffer is kept in the post beside the argument arrays, which end as launched.
-/
import proofs.«160680_j26714696581619_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the last boundary's
    contents `W7` and the argument arrays as launched: the launch over the seven segments, the last thread state read
    against the final state at every unscoped buffer. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibDenseLayer.lean ====
/-
  The two dense maps of a two-layer graph convolution, on arrays of extended reals.

  For an array `a` of `R` rows and `K` columns and a bias row `b` of `K` entries, `hidden a b` is the entrywise
  `max (a (r, k) + b k) 0`: the bias added to every row, then the positive part. `layer2 a b w` is the product of
  `hidden a b` with the `K × N` weights `w`, rows by columns. (The first layer's dense map is the plain product
  `rowsByCols x w`.)

  Both are computed row by row: row `r` of the result reads row `r` of `a` only, besides the whole bias row and the
  whole weight matrix (`hidden_rows`, `layer2_rows`). So a block of rows computed from the same block of rows of `a`
  is that block of rows of the whole result. Nothing here needs an entry to be finite: a product rows by columns is
  one finite sum, and sums of extended reals commute.
-/
import Idealize.ShloMosaic.Lib.ValueIdx
import Idealize.ShloMosaic.PureOps.Ideal.Laws
import proofs.«160680_j26714696581619_1_alg».proof.Proof.LibPlainProduct

noncomputable section

open scoped BigOperators

namespace Cert.GcnSpec

open Idealize.ShloMosaic Idealize.ShloMosaic.ValueIdx Idealize.ShloMosaic.PlainProduct

variable {R B K N : ℕ}

/-- The zero of single precision, as both programs spell it. -/
abbrev zero32 : Ideal .f32 := FloatOps.ofBits .f32 0x00000000#32

/-- The bias row added to every row, then the positive part: entry `(r, k)` is `max (a (r, k) + b k) 0`. -/
def hidden (a : FVec Ideal ⟨2, ![R, K]⟩ .f32) (b : FVec Ideal ⟨2, ![1, K]⟩ .f32) : FVec Ideal ⟨2, ![R, K]⟩ .f32 :=
  fun j => max (a j + b (ix2 (n0 := 1) (n1 := K) 0 (j 1))) zero32

theorem hidden_apply (a : FVec Ideal ⟨2, ![R, K]⟩ .f32) (b : FVec Ideal ⟨2, ![1, K]⟩ .f32) (j : (⟨2, ![R, K]⟩ : Shape).Idx) :
    hidden a b j = max (a j + b (ix2 (n0 := 1) (n1 := K) 0 (j 1))) zero32 := rfl

/-- The second layer's dense map: the hidden rows times the weights, rows by columns. -/
def layer2 (a : FVec Ideal ⟨2, ![R, K]⟩ .f32) (b : FVec Ideal ⟨2, ![1, K]⟩ .f32) (w : FVec Ideal ⟨2, ![K, N]⟩ .f32) :
    FVec Ideal ⟨2, ![R, N]⟩ .f32 :=
  rowsByCols (hidden a b) w

/-- Rows `e r` of the hidden array are the hidden rows of rows `e r` of `a`. -/
theorem hidden_rows (a : FVec Ideal ⟨2, ![R, K]⟩ .f32) (b : FVec Ideal ⟨2, ![1, K]⟩ .f32)
    (ab : FVec Ideal ⟨2, ![B, K]⟩ .f32) (e : Fin B → Fin R)
    (ha : ∀ (r : Fin B) (k : Fin K), ab (ix2 (n0 := B) (n1 := K) r k) = a (ix2 (n0 := R) (n1 := K) (e r) k))
    (r : Fin B) (k : Fin K) :
    hidden ab b (ix2 (n0 := B) (n1 := K) r k) = hidden a b (ix2 (n0 := R) (n1 := K) (e r) k) :=
  congrArg (fun v => max (v + b (ix2 (n0 := 1) (n1 := K) 0 k)) zero32) (ha r k)

/-- Rows `e r` of the second layer's map are the map of rows `e r` of `a`. -/
theorem layer2_rows (a : FVec Ideal ⟨2, ![R, K]⟩ .f32) (b : FVec Ideal ⟨2, ![1, K]⟩ .f32) (w : FVec Ideal ⟨2, ![K, N]⟩ .f32)
    (ab : FVec Ideal ⟨2, ![B, K]⟩ .f32) (e : Fin B → Fin R)
    (ha : ∀ (r : Fin B) (k : Fin K), ab (ix2 (n0 := B) (n1 := K) r k) = a (ix2 (n0 := R) (n1 := K) (e r) k))
    (j : (⟨2, ![B, N]⟩ : Shape).Idx) :
    layer2 ab b w j = layer2 a b w (ix2 (n0 := R) (n1 := N) (e (j 0)) (j 1)) :=
  rowsByCols_rows (hidden a b) w (hidden ab b) e (hidden_rows a b ab e ha) j

end Cert.GcnSpec

end
-- ==== Proof.RefChain.lean ====
/-
  The reference's value as ONE function of its seven arguments.

  The reference is a two-layer graph convolution. From the edge list `x1` and the edge weights `x2` it builds the
  source and target node of every edge (self loops appended) and the symmetric normalisation `norm` of every edge.
  A layer's sparse part (`aggregate1`, `aggregate2`) gathers the rows of a dense array at the edges' sources,
  scales row `e` by `norm e` and sums the rows into the edges' targets; it is kept here as one opaque function of
  the dense array, the edge list and the weights, never opened. The dense parts are the product `x0 · x3`
  (layer 1) and `max (agg + bias row) 0 · x5` (layer 2); on the extended reals the host's general dot product is
  the plain sum over the contracted axis, so they are `rowsByCols` and `layer2`. The reference recomputes `norm` for
  its second layer by the same operations of the same operands: the two are one term.
-/
import proofs.«160680_j26714696581619_1_alg».proof.Proof.Gen.ReferenceIdeal.Read
import proofs.«160680_j26714696581619_1_alg».proof.Proof.LibDenseLayer

noncomputable section

open scoped BigOperators

namespace Cert.ReferenceIdeal.Chain

open Cert.ReferenceIdeal Cert.ReferenceIdeal.Gen Cert.ReferenceIdeal.Read
open Idealize.ShloMosaic Idealize.ShloMosaic.ValueIdx Idealize.ShloMosaic.PlainProduct

section Generic

variable {F : FTy → Type} [FloatOps F]

/-- Layer 1's sparse part, of a dense array `xw`: rows of `xw` gathered at the edges' sources, row `e` scaled by
    `norm e`, summed into the edges' targets. -/
def aggregate1 (xw : (⟨S100000x128, .f32⟩ : BufTy).Contents (Elt F)) (x1 : (⟨S2x600000, .i32⟩ : BufTy).Contents (Elt F)) (x2 : (⟨S600000, .f32⟩ : BufTy).Contents (Elt F)) :
    (⟨S100000x128, .f32⟩ : BufTy).Contents (Elt F) :=
  Host.scatterAdd scatter_S100000x128_S700000x1_S700000x128_1_0_0_1 (val_main_v43 (F := F)) (val_main_v44 (F := F) x1)
    (mulf (Host.gather gather_S100000x128_S700000x1_S700000x128_1_0_n_n_0_1_1128 xw (val_main_v38 (F := F) x1)) (val_main_v41 (F := F) x1 x2))

/-- The reference's layer-1 aggregate is `aggregate1` of its dense product. -/
theorem v45_eq (x0 : (⟨S100000x128, .f32⟩ : BufTy).Contents (Elt F)) (x1 : (⟨S2x600000, .i32⟩ : BufTy).Contents (Elt F)) (x2 : (⟨S600000, .f32⟩ : BufTy).Contents (Elt F)) (x3 : (⟨S128x128, .f32⟩ : BufTy).Contents (Elt F)) :
    val_main_v45 (F := F) x0 x1 x2 x3 = aggregate1 (val_main_v32 (F := F) x0 x3) x1 x2 := rfl

/-- Layer 2's sparse part, of a dense array `xw`, with the output bias row added to every row. -/
def aggregate2 (xw : (⟨S100000x64, .f32⟩ : BufTy).Contents (Elt F)) (x1 : (⟨S2x600000, .i32⟩ : BufTy).Contents (Elt F)) (x2 : (⟨S600000, .f32⟩ : BufTy).Contents (Elt F)) (x6 : (⟨S64, .f32⟩ : BufTy).Contents (Elt F)) :
    (⟨S100000x64, .f32⟩ : BufTy).Contents (Elt F) :=
  addf (Host.scatterAdd scatter_S100000x64_S700000x1_S700000x64_1_0_0_1 (val_main_v84 (F := F)) (val_main_v85 (F := F) x1)
    (mulf (Host.gather gather_S100000x64_S700000x1_S700000x64_1_0_n_n_0_1_164 xw (val_main_v79 (F := F) x1)) (val_main_v82 (F := F) x1 x2)))
    (val_main_v88 (F := F) x6)

/-- The reference's result is `aggregate2` of its second dense product. -/
theorem v89_eq (x0 : (⟨S100000x128, .f32⟩ : BufTy).Contents (Elt F)) (x1 : (⟨S2x600000, .i32⟩ : BufTy).Contents (Elt F)) (x2 : (⟨S600000, .f32⟩ : BufTy).Contents (Elt F)) (x3 : (⟨S128x128, .f32⟩ : BufTy).Contents (Elt F))
    (x4 : (⟨S128, .f32⟩ : BufTy).Contents (Elt F)) (x5 : (⟨S128x64, .f32⟩ : BufTy).Contents (Elt F)) (x6 : (⟨S64, .f32⟩ : BufTy).Contents (Elt F)) :
    val_main_v89 (F := F) x0 x1 x2 x3 x4 x5 x6 = aggregate2 (val_main_v73 (F := F) x0 x1 x2 x3 x4 x5) x1 x2 x6 := rfl

/-- The normalisation the reference recomputes for its second layer is the first layer's: the same operations of the
    same operands. -/
theorem norm_again (x1 : (⟨S2x600000, .i32⟩ : BufTy).Contents (Elt F)) (x2 : (⟨S600000, .f32⟩ : BufTy).Contents (Elt F)) :
    val_main_v72 (F := F) x1 x2 = val_main_v31 (F := F) x1 x2 := rfl

end Generic

/-! ## The dense parts on the extended reals -/

/-- The first dense product is the plain product rows by columns. -/
theorem v32_eq (x0 : (⟨S100000x128, .f32⟩ : BufTy).Contents (Elt Ideal)) (x3 : (⟨S128x128, .f32⟩ : BufTy).Contents (Elt Ideal)) :
    val_main_v32 (F := Ideal) x0 x3 = rowsByCols (φ₁ := .f32) (φ₂ := .f32) x0 x3 :=
  dotGeneral_plain none .single x0 x3

/-- The bias row broadcast over the rows, added, then the maximum with zero: the hidden rows. -/
theorem v49_eq (x0 : (⟨S100000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal))
    (x4 : (⟨S128, .f32⟩ : BufTy).Contents (Elt Ideal)) :
    val_main_v49 (F := Ideal) x0 x1 x2 x3 x4 = Cert.GcnSpec.hidden (val_main_v45 (F := Ideal) x0 x1 x2 x3) (val_main_v46 (F := Ideal) x4) := by
  funext j
  rw [val_main_v49_apply, val_main_v48_apply, val_main_v47_apply, val_main_call1_v0_apply, val_main_call1_cst_apply,
    Cert.GcnSpec.hidden_apply]
  have e : idx_main_v47 j = ix2 (n0 := 1) (n1 := 128) 0 (j 1) := funext fun a => Fin.ext (by
    match a with
    | ⟨0, _⟩ => rfl
    | ⟨1, _⟩ => rfl)
  rw [e]
  rfl

/-- The second dense product is `layer2` of the first layer's aggregate, the bias row and the weights. -/
theorem v73_eq (x0 : (⟨S100000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) :
    val_main_v73 (F := Ideal) x0 x1 x2 x3 x4 x5
      = Cert.GcnSpec.layer2 (val_main_v45 (F := Ideal) x0 x1 x2 x3) (val_main_v46 (F := Ideal) x4) x5 := by
  unfold val_main_v73 Cert.GcnSpec.layer2
  rw [v49_eq]
  exact dotGeneral_plain none .single _ x5

/-- The whole network as one function of the seven arguments. -/
def gcn (x0 : (⟨S100000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) (x6 : (⟨S64, .f32⟩ : BufTy).Contents (Elt Ideal)) : (⟨S100000x64, .f32⟩ : BufTy).Contents (Elt Ideal) :=
  aggregate2 (Cert.GcnSpec.layer2 (aggregate1 (rowsByCols (φ₁ := .f32) (φ₂ := .f32) x0 x3) x1 x2) (val_main_v46 (F := Ideal) x4) x5) x1 x2 x6

/-- The reference's result is `gcn` of its arguments. -/
theorem v89_gcn (x0 : (⟨S100000x128, .f32⟩ : BufTy).Contents (Elt Ideal)) (x1 : (⟨S2x600000, .i32⟩ : BufTy).Contents (Elt Ideal)) (x2 : (⟨S600000, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) (x6 : (⟨S64, .f32⟩ : BufTy).Contents (Elt Ideal)) :
    val_main_v89 (F := Ideal) x0 x1 x2 x3 x4 x5 x6 = gcn x0 x1 x2 x3 x4 x5 x6 := by
  rw [v89_eq, v73_eq, v45_eq, v32_eq]
  rfl

end Cert.ReferenceIdeal.Chain

end
-- ==== Proof.KernelValue.lean ====
/-
  What the idealized kernel's host operations compute, stretch by stretch, read at the buffers the next segment needs.

  The kernel's @main applies to its arguments the SAME host operations as the reference: the edges' source and target
  nodes with the self loops appended, the edge weights with ones appended, the degrees (a sum of weights into the
  targets), their inverse square roots where positive, the normalisation of every edge; then, around each of its
  two matrix-product regions, the gather of rows at the sources, the scaling by the normalisation and the sum into
  the targets. So every buffer of the fold `W0 … W7` that a later segment reads is the reference's stage of the same
  name at the kernel's arguments, and the two sparse parts are the reference's `aggregate1` / `aggregate2` of what
  the regions leave in their output arrays. A region changes its output array only; a stretch changes only the
  buffers its operations write.
-/
import proofs.«160680_j26714696581619_1_alg».proof.Proof.Gen.KernelIdeal.Frame
import proofs.«160680_j26714696581619_1_alg».proof.Proof.RefChain
import Idealize.ShloMosaic.Lib.StableHlo.Run
import Idealize.ShloMosaic.Lib.Pipeline.Value

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

/-- The edges' source nodes, self loops appended. -/
theorem W1_v3 (c : Dev nD) : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  dsimp only [hostOps0]
  after_results_simp
  rfl
/-- The edges' target nodes, self loops appended. -/
theorem W1_v6 (c : Dev nD) : W1 m ρ c (Proc.devRef .tc main_v6) = Cert.ReferenceIdeal.Read.val_main_v6 (F := F) (m ((c : Thread nD τ).loc main_arg1)) := by
  show StableHlo.after hostOps0 (W0 m ρ c) (Proc.devRef .tc main_v6) = _
  dsimp only [hostOps0]
  after_results_simp
  rfl
/-- The edge weights, ones appended for the self loops. -/
theorem W1_v8 (c : Dev nD) : W1 m ρ c (Proc.devRef .tc main_v8) = Cert.ReferenceIdeal.Read.val_main_v8 (F := F) (m ((c : Thread nD τ).loc main_arg2)) := by
  show StableHlo.after hostOps0 (W0 m ρ c) (Proc.devRef .tc main_v8) = _
  dsimp only [hostOps0]
  after_results_simp
  rfl
/-- Where a node's degree is positive. -/
theorem W1_v13 (c : Dev nD) : W1 m ρ c (Proc.devRef .tc main_v13) = Cert.ReferenceIdeal.Read.val_main_v13 (F := F) (m ((c : Thread nD τ).loc main_arg1)) (m ((c : Thread nD τ).loc main_arg2)) := by
  show StableHlo.after hostOps0 (W0 m ρ c) (Proc.devRef .tc main_v13) = _
  dsimp only [hostOps0]
  after_results_simp
  rfl
/-- The inverse square roots of the degrees. -/
theorem W1_v14 (c : Dev nD) : W1 m ρ c (Proc.devRef .tc main_v14) = Cert.ReferenceIdeal.Read.val_main_v14 (F := F) (m ((c : Thread nD τ).loc main_arg1)) (m ((c : Thread nD τ).loc main_arg2)) := by
  show StableHlo.after hostOps0 (W0 m ρ c) (Proc.devRef .tc main_v14) = _
  dsimp only [hostOps0]
  after_results_simp
  rfl
/-- The zero that stands where a degree is not positive. -/
theorem W1_cst_2 (c : Dev nD) : W1 m ρ c (Proc.devRef .tc main_cst_2) = Cert.ReferenceIdeal.Read.val_main_cst_2 (F := F) := by
  show StableHlo.after hostOps0 (W0 m ρ c) (Proc.devRef .tc main_cst_2) = _
  dsimp only [hostOps0]
  after_results_simp
  rfl
/-- The inverse square root of a degree where it is positive, zero elsewhere. -/
theorem W2_v15 (c : Dev nD) : W2 m ρ c (Proc.devRef .tc main_v15) = Cert.ReferenceIdeal.Read.val_main_v15 (F := F) (m ((c : Thread nD τ).loc main_arg1)) (m ((c : Thread nD τ).loc main_arg2)) := by
  show StableHlo.after hostOps0_1 (W1 m ρ c) (Proc.devRef .tc main_v15) = _
  have e0 := W1_v13 m ρ c
  have e1 := W1_v14 m ρ c
  have e2 := W1_cst_2 m ρ c
  generalize W1 m ρ c = P at e0 e1 e2 ⊢
  dsimp only [hostOps0_1]
  after_results_simp
  rw [e0, e1, e2]
  rfl
/-- The selection writes none of the edge arrays. -/
theorem W2_v3 (c : Dev nD) : W2 m ρ c (Proc.devRef .tc main_v3) = Cert.ReferenceIdeal.Read.val_main_v3 (F := F) (m ((c : Thread nD τ).loc main_arg1)) := by
  show StableHlo.after hostOps0_1 (W1 m ρ c) (Proc.devRef .tc main_v3) = _
  have e0 := W1_v3 m ρ c
  generalize W1 m ρ c = P at e0 ⊢
  dsimp only [hostOps0_1]
  after_results_simp
  exact e0
/-- The selection writes none of the edge arrays. -/
theorem W2_v6 (c : Dev nD) : W2 m ρ c (Proc.devRef .tc main_v6) = Cert.ReferenceIdeal.Read.val_main_v6 (F := F) (m ((c : Thread nD τ).loc main_arg1)) := by
  show StableHlo.after hostOps0_1 (W1 m ρ c) (Proc.devRef .tc main_v6) = _
  have e0 := W1_v6 m ρ c
  generalize W1 m ρ c = P at e0 ⊢
  dsimp only [hostOps0_1]
  after_results_simp
  exact e0
/-- The selection writes none of the edge arrays. -/
theorem W2_v8 (c : Dev nD) : W2 m ρ c (Proc.devRef .tc main_v8) = Cert.ReferenceIdeal.Read.val_main_v8 (F := F) (m ((c : Thread nD τ).loc main_arg2)) := by
  show StableHlo.after hostOps0_1 (W1 m ρ c) (Proc.devRef .tc main_v8) = _
  have e0 := W1_v8 m ρ c
  generalize W1 m ρ c = P at e0 ⊢
  dsimp only [hostOps0_1]
  after_results_simp
  exact e0
/-- The normalisation of every edge: the inverse square root at its source, its weight, the inverse square root at its target. -/
theorem W3_v31 (c : Dev nD) : W3 m ρ c (Proc.devRef .tc main_v31) = Cert.ReferenceIdeal.Read.val_main_v31 (F := F) (m ((c : Thread nD τ).loc main_arg1)) (m ((c : Thread nD τ).loc main_arg2)) := by
  show StableHlo.after hostOps0_2 (W2 m ρ c) (Proc.devRef .tc main_v31) = _
  have e0 := W2_v15 m ρ c
  have e1 := W2_v3 m ρ c
  have e2 := W2_v6 m ρ c
  have e3 := W2_v8 m ρ c
  generalize W2 m ρ c = P at e0 e1 e2 e3 ⊢
  dsimp only [hostOps0_2]
  after_results_simp
  rw [e0, e1, e2, e3]
  rfl
/-- The sources are kept. -/
theorem W3_v3 (c : Dev nD) : W3 m ρ c (Proc.devRef .tc main_v3) = Cert.ReferenceIdeal.Read.val_main_v3 (F := F) (m ((c : Thread nD τ).loc main_arg1)) := by
  show StableHlo.after hostOps0_2 (W2 m ρ c) (Proc.devRef .tc main_v3) = _
  have e0 := W2_v3 m ρ c
  generalize W2 m ρ c = P at e0 ⊢
  dsimp only [hostOps0_2]
  after_results_simp
  exact e0
/-- The targets are kept. -/
theorem W3_v6 (c : Dev nD) : W3 m ρ c (Proc.devRef .tc main_v6) = Cert.ReferenceIdeal.Read.val_main_v6 (F := F) (m ((c : Thread nD τ).loc main_arg1)) := by
  show StableHlo.after hostOps0_2 (W2 m ρ c) (Proc.devRef .tc main_v6) = _
  have e0 := W2_v6 m ρ c
  generalize W2 m ρ c = P at e0 ⊢
  dsimp only [hostOps0_2]
  after_results_simp
  exact e0
/-- No host operation writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results_simp
/-- No host operation writes an argument. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results_simp
/-- No host operation writes an argument. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results_simp
/-- No host operation writes an argument. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results_simp
/-- No host operation writes an argument. -/
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results_simp

/-! ## The first region: it writes its output array only -/

/-- The first region's output array holds what its write-backs leave. -/
theorem W4_v32 (c : Dev nD) : W4 m ρ c (Proc.devRef .tc main_v32) = (dat0 (V3 m ρ) c).arrAt 2 cfg0.N := W4_arr m ρ c 2
theorem W4_v3 (c : Dev nD) : W4 m ρ c (Proc.devRef .tc main_v3) = Cert.ReferenceIdeal.Read.val_main_v3 (F := F) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.Read.val_main_v6 (F := F) (m ((c : Thread nD τ).loc main_arg1)) :=
  (W4_of_ne m ρ c main_v6 (by decide)).trans (W3_v6 m ρ c)
theorem W4_v31 (c : Dev nD) : W4 m ρ c (Proc.devRef .tc main_v31) = Cert.ReferenceIdeal.Read.val_main_v31 (F := F) (m ((c : Thread nD τ).loc main_arg1)) (m ((c : Thread nD τ).loc main_arg2)) :=
  (W4_of_ne m ρ c main_v31 (by decide)).trans (W3_v31 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## Between the regions -/

/-- A vector recast as a one-row array is the vector broadcast to that row: entry `(0, k)` is entry `k`. -/
theorem bias_row (x : (⟨S128, .f32⟩ : BufTy).Contents (Elt F)) :
    shapeCast S1x128 x shapeCasts_S128_S1x128 = Cert.ReferenceIdeal.Read.val_main_v46 (F := F) x := by
  funext i
  rw [Cert.ReferenceIdeal.Read.val_main_v46_apply]
  refine (shapeCast_addUnit_apply ![128] x shapeCasts_S128_S1x128 i).trans (congrArg x ?_)
  funext a
  apply Fin.ext
  match a with
  | ⟨0, _⟩ => rfl

/-- Layer 1's sparse part, of what the first region leaves in its output array. -/
theorem W5_v45 (c : Dev nD) : W5 m ρ c (Proc.devRef .tc main_v45) = Cert.ReferenceIdeal.Chain.aggregate1 (F := F) ((dat0 (V3 m ρ) c).arrAt 2 cfg0.N) (m ((c : Thread nD τ).loc main_arg1)) (m ((c : Thread nD τ).loc main_arg2)) := by
  show StableHlo.after hostOps1 (W4 m ρ c) (Proc.devRef .tc main_v45) = _
  have e0 := W4_v32 m ρ c
  have e1 := W4_v3 m ρ c
  have e2 := W4_v6 m ρ c
  have e3 := W4_v31 m ρ c
  generalize W4 m ρ c = P at e0 e1 e2 e3 ⊢
  dsimp only [hostOps1]
  after_results_simp
  rw [e0, e1, e2, e3]
  rfl
/-- The bias vector recast as a row. -/
theorem W5_v46 (c : Dev nD) : W5 m ρ c (Proc.devRef .tc main_v46) = Cert.ReferenceIdeal.Read.val_main_v46 (F := F) (m ((c : Thread nD τ).loc main_arg4)) := by
  show StableHlo.after hostOps1 (W4 m ρ c) (Proc.devRef .tc main_v46) = _
  have e0 := W4_arg4 m ρ c
  generalize W4 m ρ c = P at e0 ⊢
  dsimp only [hostOps1]
  after_results_simp
  rw [e0]
  exact bias_row _
/-- Kept by the stretch between the regions. -/
theorem W5_v3 (c : Dev nD) : W5 m ρ c (Proc.devRef .tc main_v3) = Cert.ReferenceIdeal.Read.val_main_v3 (F := F) (m ((c : Thread nD τ).loc main_arg1)) := by
  show StableHlo.after hostOps1 (W4 m ρ c) (Proc.devRef .tc main_v3) = _
  have e0 := W4_v3 m ρ c
  generalize W4 m ρ c = P at e0 ⊢
  dsimp only [hostOps1]
  after_results_simp
  exact e0
/-- Kept by the stretch between the regions. -/
theorem W5_v6 (c : Dev nD) : W5 m ρ c (Proc.devRef .tc main_v6) = Cert.ReferenceIdeal.Read.val_main_v6 (F := F) (m ((c : Thread nD τ).loc main_arg1)) := by
  show StableHlo.after hostOps1 (W4 m ρ c) (Proc.devRef .tc main_v6) = _
  have e0 := W4_v6 m ρ c
  generalize W4 m ρ c = P at e0 ⊢
  dsimp only [hostOps1]
  after_results_simp
  exact e0
/-- Kept by the stretch between the regions. -/
theorem W5_v31 (c : Dev nD) : W5 m ρ c (Proc.devRef .tc main_v31) = Cert.ReferenceIdeal.Read.val_main_v31 (F := F) (m ((c : Thread nD τ).loc main_arg1)) (m ((c : Thread nD τ).loc main_arg2)) := by
  show StableHlo.after hostOps1 (W4 m ρ c) (Proc.devRef .tc main_v31) = _
  have e0 := W4_v31 m ρ c
  generalize W4 m ρ c = P at e0 ⊢
  dsimp only [hostOps1]
  after_results_simp
  exact e0
/-- Kept by the stretch between the regions. -/
theorem W5_arg5 (c : Dev nD) : W5 m ρ c (Proc.devRef .tc main_arg5) = m ((c : Thread nD τ).loc main_arg5) := by
  show StableHlo.after hostOps1 (W4 m ρ c) (Proc.devRef .tc main_arg5) = _
  have e0 := W4_arg5 m ρ c
  generalize W4 m ρ c = P at e0 ⊢
  dsimp only [hostOps1]
  after_results_simp
  exact e0
/-- Kept by the stretch between the regions. -/
theorem W5_arg6 (c : Dev nD) : W5 m ρ c (Proc.devRef .tc main_arg6) = m ((c : Thread nD τ).loc main_arg6) := by
  show StableHlo.after hostOps1 (W4 m ρ c) (Proc.devRef .tc main_arg6) = _
  have e0 := W4_arg6 m ρ c
  generalize W4 m ρ c = P at e0 ⊢
  dsimp only [hostOps1]
  after_results_simp
  exact e0

/-! ## The second region, and the last stretch -/

/-- The second region's output array holds what its write-backs leave. -/
theorem W6_v47 (c : Dev nD) : W6 m ρ c (Proc.devRef .tc main_v47) = (dat1 (V5 m ρ) c).arrAt 3 cfg1.N := W6_arr m ρ c 3
theorem W6_v3 (c : Dev nD) : W6 m ρ c (Proc.devRef .tc main_v3) = Cert.ReferenceIdeal.Read.val_main_v3 (F := F) (m ((c : Thread nD τ).loc main_arg1)) :=
  (W6_of_ne m ρ c main_v3 (by decide)).trans (W5_v3 m ρ c)
theorem W6_v6 (c : Dev nD) : W6 m ρ c (Proc.devRef .tc main_v6) = Cert.ReferenceIdeal.Read.val_main_v6 (F := F) (m ((c : Thread nD τ).loc main_arg1)) :=
  (W6_of_ne m ρ c main_v6 (by decide)).trans (W5_v6 m ρ c)
theorem W6_v31 (c : Dev nD) : W6 m ρ c (Proc.devRef .tc main_v31) = Cert.ReferenceIdeal.Read.val_main_v31 (F := F) (m ((c : Thread nD τ).loc main_arg1)) (m ((c : Thread nD τ).loc main_arg2)) :=
  (W6_of_ne m ρ c main_v31 (by decide)).trans (W5_v31 m ρ c)
theorem W6_arg6 (c : Dev nD) : W6 m ρ c (Proc.devRef .tc main_arg6) = m ((c : Thread nD τ).loc main_arg6) :=
  (W6_of_ne m ρ c main_arg6 (by decide)).trans (W5_arg6 m ρ c)
/-- The normalisation, as the reference's second computation of it spells it. -/
theorem W6_v31' (c : Dev nD) : W6 m ρ c (Proc.devRef .tc main_v31) = Cert.ReferenceIdeal.Read.val_main_v72 (F := F) (m ((c : Thread nD τ).loc main_arg1)) (m ((c : Thread nD τ).loc main_arg2)) :=
  (W6_v31 m ρ c).trans (Cert.ReferenceIdeal.Chain.norm_again _ _).symm

/-- The result: layer 2's sparse part, of what the second region leaves in its output array, plus the output bias row. -/
theorem W7_v63 (c : Dev nD) : W7 m ρ c (Proc.devRef .tc main_v63) = Cert.ReferenceIdeal.Chain.aggregate2 (F := F) ((dat1 (V5 m ρ) c).arrAt 3 cfg1.N) (m ((c : Thread nD τ).loc main_arg1)) (m ((c : Thread nD τ).loc main_arg2)) (m ((c : Thread nD τ).loc main_arg6)) := by
  show StableHlo.after hostOps2 (W6 m ρ c) (Proc.devRef .tc main_v63) = _
  have e0 := W6_v47 m ρ c
  have e1 := W6_v3 m ρ c
  have e2 := W6_v6 m ρ c
  have e3 := W6_v31' m ρ c
  have e4 := W6_arg6 m ρ c
  generalize W6 m ρ c = P at e0 e1 e2 e3 e4 ⊢
  dsimp only [hostOps2]
  after_results_simp
  rw [e0, e1, e2, e3, e4]
  rfl

end Cert.KernelIdeal.HostValue

end
-- ==== Proof.Region0.lean ====
/-
  The first region's output array, as one function of the arrays the region finds.

  The region walks a grid of 20 points. Point `t` reads rows `5000·t … 5000·t + 4999` of the `100000 × 128` array
  `a` and the whole `128 × 128` array `w`, and writes the product, rows by columns, of that block of rows with `w` to
  the same rows of the output. Rows `r` of a product depend on rows `r` of the left operand only, so each block written
  is that block of rows of the whole product `a · w`; the 20 blocks of rows fill the output, so the output ends
  holding `a · w`.
-/
import proofs.«160680_j26714696581619_1_alg».proof.Proof.Gen.KernelIdeal.Frame
import Idealize.ShloMosaic.Lib.Pipeline.Value
import proofs.«160680_j26714696581619_1_alg».proof.Proof.LibPlainProduct

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.PlainProduct

-- the arrays as the region finds them
variable (V : (c : Dev nD) → (b : Ref sig .tc) → Buf (Elt Ideal) ((c : Thread nD τ).loc b))

/-! ## What the body computes from its two blocks -/

/-- The offsets `(0, 0)` are zero on every axis. -/
theorem zero_offsets : (![0, 0] : Fin 2 → Nat) = fun _ => 0 := funext fun a => by fin_cases a <;> rfl

/-- The body's value: on the extended reals the narrowing of an operand to half precision is the identity, and the
    matrix unit's product into the zero accumulator is the product rows by columns. -/
theorem payload_product (x0 : Vec Ideal S5000x128 .f32) (x1 : Vec Ideal S128x128 .f32) :
    Gen.k0_pay1 x0 x1 = rowsByCols (φ₁ := .f32) (φ₂ := .f32) (M := 5000) (K := 128) (N := 128) x0 x1 := by
  unfold Gen.k0_pay1
  exact matmul_zero_plain (φ₁ := .bf16) (φ₂ := .bf16) (M := 5000) (K := 128) (N := 128) none _ _

/-- The output block after the body: its one store covers the whole block and the two loads read the whole input
    blocks, so the block holds the product of the input blocks. -/
theorem out_product (x0 : Vec Ideal S5000x128 .f32) (x1 : Vec Ideal S128x128 .f32) :
    Gen.out0_2 x0 x1 = rowsByCols (φ₁ := .f32) (φ₂ := .f32) (M := 5000) (K := 128) (N := 128) x0 x1 := by
  unfold Gen.out0_2
  rw [View.canon_unit_zero zero_offsets]
  simp only [View.ld_unit_zero (S := S5000x128) zero_offsets, View.ld_unit_zero (S := S128x128) zero_offsets]
  exact payload_product x0 x1

/-! ## Where the blocks sit -/

/-- The block indices over the grid: the block of rows read is the block of rows written; no block moves along the
    columns; the second operand's block is always the whole array; and the block of rows written is one of the 20. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Each of the 20 blocks of rows of the output is written by some point. -/
theorem block_indices_onto : ∀ q : Fin 20, ∃ t : Fin cfg0.N, win0_2.index t = ![q.val, 0] :=
  (by decide +kernel : ∀ q : Fin 20, ∃ t : Fin grid0.N, win0_2.index t = ![q.val, 0])

/-! ## What each point writes -/

/-- Point `t` writes block `t` of the whole product. An entry `(r, k)` of a block sits in its array at row
    `(block index) · 5000 + r` and column `k`; the second operand's block is the whole array; and rows
    `q · 5000 + r` of the product depend on rows `q · 5000 + r` of the first operand only. -/
theorem flushed_product (c : Dev nD) (t : Fin cfg0.N) :
    (Gen.dat0 (F := Ideal) V c).flushed 2 t
      = ((cfg0.win 2).blk t).view.read (Elt Ideal)
          (rowsByCols (φ₁ := .f32) (φ₂ := .f32) (M := 100000) (K := 128) (N := 128) (V c main_arg0) (V c main_arg3)) := by
  show (cfg0.win 2).cut (grid0.coords t) ((Gen.dat0 V c).after 2 t) = _
  rw [Gen.after0_2, out_product]
  obtain ⟨e0, e1, e2, e3, e4, e5⟩ := block_indices t
  -- the second operand's block is the whole array
  have hw : Gen.iblk0 V c 1 t = V c main_arg3 := by
    funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [hw]
  funext j
  have hj0 : (j 0).val < 5000 := (j 0).isLt
  have hj1 : (j 1).val < 128 := (j 1).isLt
  show rowsByCols (φ₁ := .f32) (φ₂ := .f32) (M := 5000) (K := 128) (N := 128) (Gen.iblk0 V c 0 t) (V c main_arg3) j
    = rowsByCols (φ₁ := .f32) (φ₂ := .f32) (M := 100000) (K := 128) (N := 128) (V c main_arg0) (V c main_arg3) (((cfg0.win 2).blk t).view.emb j)
  refine (rowsByCols_rows (φ₁ := .f32) (φ₂ := .f32) (M := 100000) (K := 128) (N := 128) (B := 5000) (V c main_arg0) (V c main_arg3) (Gen.iblk0 V c 0 t)
    (fun r => ⟨win0_2.index t (0 : Fin 2) * 5000 + r.val, by have := r.isLt; omega⟩) ?_ j).trans ?_
  · -- the first operand's block holds rows `(block index) · 5000 + r` of its array
    intro r k
    show V c main_arg0 (((cfg0.win 0).blk t).view.emb (ix2 (n0 := 5000) (n1 := 128) r k)) = _
    refine congrArg (V c main_arg0) (funext fun a => Fin.ext ?_)
    match a with
    | ⟨0, _⟩ => show win0_0.index t (0 : Fin 2) * 5000 + 1 * r.val = win0_2.index t (0 : Fin 2) * 5000 + r.val; omega
    | ⟨1, _⟩ => show win0_0.index t (1 : Fin 2) * 128 + 1 * k.val = k.val; omega
  · -- and entry `j` of the output's block sits at that row and at column `j 1`
    refine congrArg (rowsByCols (φ₁ := .f32) (φ₂ := .f32) (M := 100000) (K := 128) (N := 128) (V c main_arg0) (V c main_arg3)) (funext fun a => Fin.ext ?_)
    match a with
    | ⟨0, _⟩ => show win0_2.index t (0 : Fin 2) * 5000 + (j 0).val = win0_2.index t (0 : Fin 2) * 5000 + 1 * (j 0).val; omega
    | ⟨1, _⟩ => show (j 1).val = win0_2.index t (1 : Fin 2) * 128 + 1 * (j 1).val; omega

/-! ## The blocks fill the array -/

/-- An index of the output is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index `(r, k)` of the output is in the block of rows number `r / 5000`, which some point writes. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_indices_onto ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array after the region -/

/-- THE OUTPUT ARRAY after the region's 20 points is the product, rows by columns, of the two arrays it read: every
    point writes its block of the product, and the blocks fill the array. -/
theorem product_array (c : Dev nD) :
    (Gen.dat0 (F := Ideal) V c).arrAt 2 cfg0.N
      = Idealize.ShloMosaic.PlainProduct.rowsByCols (φ₁ := .f32) (φ₂ := .f32) (V c main_arg0) (V c main_arg3) :=
  (Gen.dat0 (F := Ideal) V c).arrAt_eq_of_cover 2 _ (fun t _ => flushed_product V c t) blocks_cover

end Cert.KernelIdeal.RegionValue

end
-- ==== Proof.Body1.lean ====
/-
  The second region's body, as a function of the three blocks it reads.

  From a block `a` of 5000 rows and 128 columns, the bias row `b` of 128 entries and the `128 × 64` weights `w`,
  the body adds `b` to every row of `a`, takes the positive part entrywise, and multiplies the result with `w`,
  rows by columns, into a zero accumulator. On the extended reals the narrowing of an operand to half precision is the
  identity, so the value is `layer2 a b w`: entry `(r, c)` is `∑ k, max (a (r, k) + b k) 0 · w (k, c)`.
-/
import proofs.«160680_j26714696581619_1_alg».proof.Proof.Gen.KernelIdeal.Skeleton
import Idealize.ShloMosaic.Lib.Pipeline.Value
import proofs.«160680_j26714696581619_1_alg».proof.Proof.LibDenseLayer

noncomputable section

namespace Cert.KernelIdeal.RegionValue

open Cert.KernelIdeal Cert.KernelIdeal.Gen Idealize.ShloMosaic
open Idealize.ShloMosaic.ValueIdx Idealize.ShloMosaic.PlainProduct Cert.GcnSpec

/-- The offsets `(0, 0)` are zero on every axis. -/
theorem origin_offsets : (![0, 0] : Fin 2 → Nat) = fun _ => 0 := funext fun a => by fin_cases a <;> rfl

/-- The body's value is the second layer's map of its blocks. A cast to the same shape is the identity; the bias row
    broadcast over the 5000 rows reads, at `(r, k)`, the row's entry `k`; the sum and the maximum with the zero
    constant are entrywise, which is `hidden a b`; and the matrix unit's product of `hidden a b` with `w` into
    the zero accumulator is the product rows by columns. -/
theorem payload_layer2 (x0 : Vec Ideal S5000x128 .f32) (x1 : Vec Ideal S1x128 .f32) (x2 : Vec Ideal S128x64 .f32) :
    Gen.k1_pay1 x0 x1 x2 = layer2 (R := 5000) (K := 128) (N := 64) x0 x1 x2 := by
  unfold Gen.k1_pay1
  dsimp only
  rw [shapeCast_self, shapeCast_self]
  refine (matmul_zero_plain (φ₁ := .bf16) (φ₂ := .bf16) (M := 5000) (K := 128) (N := 64) none _ _).trans ?_
  refine congrArg (fun h => rowsByCols (φ₁ := .f32) (φ₂ := .f32) (M := 5000) (K := 128) (N := 64) h x2) (funext fun j => ?_)
  show max (x0 j + broadcastTo S5000x128 x1 broadcasts_S1x128_S5000x128 j) zero32 = max (x0 j + x1 (ix2 (n0 := 1) (n1 := 128) 0 (j 1))) zero32
  rw [broadcastTo_apply x1 broadcasts_S1x128_S5000x128 j (ix2 (n0 := 1) (n1 := 128) 0 (j 1)) (fun a => by
    match a with
    | ⟨0, _⟩ => rfl
    | ⟨1, _⟩ => rfl)]

end Cert.KernelIdeal.RegionValue

end
-- ==== Proof.Region1.lean ====
/-
  The second region's output array, as one function of the arrays the region finds.

  The region walks a grid of 20 points. Point `t` reads rows `5000·t … 5000·t + 4999` of the `100000 × 128` array
  `a`, the whole bias row `b` of 128 entries and the whole `128 × 64` weights `w`, and writes the second layer's
  map of that block of rows — the bias added to every row, the positive part, then the product with `w` rows by
  columns — to the same rows of the output. Rows `r` of the map depend on rows `r` of `a` only, so each block written
  is that block of rows of `layer2 a b w`; the 20 blocks of rows fill the output, so the output ends holding
  `layer2 a b w`.
-/
import proofs.«160680_j26714696581619_1_alg».proof.Proof.Gen.KernelIdeal.Frame
import Idealize.ShloMosaic.Lib.Pipeline.Value
import proofs.«160680_j26714696581619_1_alg».proof.Proof.LibDenseLayer
import proofs.«160680_j26714696581619_1_alg».proof.Proof.Body1

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.PlainProduct Cert.GcnSpec

-- the arrays as the region finds them
variable (V : (c : Dev nD) → (b : Ref sig .tc) → Buf (Elt Ideal) ((c : Thread nD τ).loc b))

/-! ## What the body computes from its three blocks -/

/-- The output block after the body: its one store covers the whole block and the three loads read the whole input
    blocks, so the block holds the second layer's map of the input blocks. -/
theorem out_layer2 (x0 : Vec Ideal S5000x128 .f32) (x1 : Vec Ideal S1x128 .f32) (x2 : Vec Ideal S128x64 .f32) :
    Gen.out1_3 x0 x1 x2 = layer2 (R := 5000) (K := 128) (N := 64) x0 x1 x2 := by
  unfold Gen.out1_3
  rw [View.canon_unit_zero origin_offsets]
  simp only [View.ld_unit_zero (S := S5000x128) origin_offsets, View.ld_unit_zero (S := S1x128) origin_offsets,
    View.ld_unit_zero (S := S128x64) origin_offsets]
  exact payload_layer2 x0 x1 x2

/-! ## Where the blocks sit -/

/-- The block indices over the grid: the block of rows read is the block of rows written; no block moves along the
    columns; the bias row's and the weights' blocks are always the whole arrays; and the block of rows written is one
    of the 20. -/
theorem layer2_block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Each of the 20 blocks of rows of the output is written by some point. -/
theorem layer2_block_indices_onto : ∀ q : Fin 20, ∃ t : Fin cfg1.N, win1_3.index t = ![q.val, 0] :=
  (by decide +kernel : ∀ q : Fin 20, ∃ t : Fin grid1.N, win1_3.index t = ![q.val, 0])

/-! ## What each point writes -/

/-- Point `t` writes block `t` of the second layer's map of the whole arrays. An entry `(r, k)` of a block sits in
    its array at row `(block index) · 5000 + r` and column `k`; the bias row's and the weights' blocks are the whole
    arrays; and rows `q · 5000 + r` of the map depend on rows `q · 5000 + r` of the first operand only. -/
theorem flushed_layer2 (c : Dev nD) (t : Fin cfg1.N) :
    (Gen.dat1 (F := Ideal) V c).flushed 3 t
      = ((cfg1.win 3).blk t).view.read (Elt Ideal)
          (layer2 (R := 100000) (K := 128) (N := 64) (V c main_v45) (V c main_v46) (V c main_arg5)) := by
  show (cfg1.win 3).cut (grid1.coords t) ((Gen.dat1 V c).after 3 t) = _
  rw [Gen.after1_3, out_layer2]
  obtain ⟨e0, e1, e2, e3, e4, e5, e6, e7⟩ := layer2_block_indices t
  -- the bias row's block is the whole row
  have hb : Gen.iblk1 V c 1 t = V c main_v46 := by
    funext y
    show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  -- the weights' block is the whole array
  have hw : Gen.iblk1 V c 2 t = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  rw [hb, hw]
  funext j
  have hj0 : (j 0).val < 5000 := (j 0).isLt
  have hj1 : (j 1).val < 64 := (j 1).isLt
  show layer2 (R := 5000) (K := 128) (N := 64) (Gen.iblk1 V c 0 t) (V c main_v46) (V c main_arg5) j
    = layer2 (R := 100000) (K := 128) (N := 64) (V c main_v45) (V c main_v46) (V c main_arg5) (((cfg1.win 3).blk t).view.emb j)
  refine (layer2_rows (R := 100000) (K := 128) (N := 64) (B := 5000) (V c main_v45) (V c main_v46) (V c main_arg5) (Gen.iblk1 V c 0 t)
    (fun r => ⟨win1_3.index t (0 : Fin 2) * 5000 + r.val, by have := r.isLt; omega⟩) ?_ j).trans ?_
  · -- the first operand's block holds rows `(block index) · 5000 + r` of its array
    intro r k
    show V c main_v45 (((cfg1.win 0).blk t).view.emb (ix2 (n0 := 5000) (n1 := 128) r k)) = _
    refine congrArg (V c main_v45) (funext fun a => Fin.ext ?_)
    match a with
    | ⟨0, _⟩ => show win1_0.index t (0 : Fin 2) * 5000 + 1 * r.val = win1_3.index t (0 : Fin 2) * 5000 + r.val; omega
    | ⟨1, _⟩ => show win1_0.index t (1 : Fin 2) * 128 + 1 * k.val = k.val; omega
  · -- and entry `j` of the output's block sits at that row and at column `j 1`
    refine congrArg (layer2 (R := 100000) (K := 128) (N := 64) (V c main_v45) (V c main_v46) (V c main_arg5)) (funext fun a => Fin.ext ?_)
    match a with
    | ⟨0, _⟩ => show win1_3.index t (0 : Fin 2) * 5000 + (j 0).val = win1_3.index t (0 : Fin 2) * 5000 + 1 * (j 0).val; omega
    | ⟨1, _⟩ => show (j 1).val = win1_3.index t (1 : Fin 2) * 64 + 1 * (j 1).val; omega

/-! ## The blocks fill the array -/

/-- An index of the output is in point `t`'s block iff each coordinate is in the block's range on its axis. -/
theorem mem_layer2_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Every index `(r, k)` of the output is in the block of rows number `r / 5000`, which some point writes. -/
theorem layer2_blocks_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := layer2_block_indices_onto ⟨(i 0).val / 5000, by omega⟩
  have q0 : win1_3.index t (0 : Fin 2) = (i 0).val / 5000 := congrFun ht 0
  have q1 : win1_3.index t (1 : Fin 2) = 0 := congrFun ht 1
  refine ⟨t, Gen.flush1_3 t, ?_⟩
  rw [mem_layer2_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-! ## The array after the region -/

/-- THE OUTPUT ARRAY after the region's 20 points is the second layer's map of the three arrays it read: every point
    writes its block of the map, and the blocks fill the array. -/
theorem layer2_array (c : Dev nD) :
    (Gen.dat1 (F := Ideal) V c).arrAt 3 cfg1.N = Cert.GcnSpec.layer2 (V c main_v45) (V c main_v46) (V c main_arg5) :=
  (Gen.dat1 (F := Ideal) V c).arrAt_eq_of_cover 3 _ (fun t _ => flushed_layer2 V c t) layer2_blocks_cover

end Cert.KernelIdeal.RegionValue

end
-- ==== Proof.KernelGcn.lean ====
/-
  The idealized kernel's result as the network `gcn` of its arguments.

  The last stretch leaves in the result buffer layer 2's sparse part of the second region's output array. That array
  is `layer2` of the arrays the second region finds: the first layer's aggregate, the bias row and the second weights.
  The aggregate is layer 1's sparse part of the first region's output array, which is the product of the node
  features with the first weights, rows by columns. No segment writes an argument array. Together: the function
  `gcn` the reference computes.
-/
import proofs.«160680_j26714696581619_1_alg».proof.Proof.KernelValue
import proofs.«160680_j26714696581619_1_alg».proof.Proof.Region0
import proofs.«160680_j26714696581619_1_alg».proof.Proof.Region1

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product depends on its two operands only. -/
theorem product_congr {x x' : (⟨Cert.ReferenceIdeal.S100000x128, .f32⟩ : BufTy).Contents (Elt Ideal)}
    {w w' : (⟨Cert.ReferenceIdeal.S128x128, .f32⟩ : BufTy).Contents (Elt Ideal)} (hx : x = x') (hw : w = w') :
    Idealize.ShloMosaic.PlainProduct.rowsByCols (φ₁ := .f32) (φ₂ := .f32) x w
      = Idealize.ShloMosaic.PlainProduct.rowsByCols (φ₁ := .f32) (φ₂ := .f32) x' w' := by
  subst hx hw; rfl

/-- The second dense map depends on its three operands only. -/
theorem layer2_congr {a a' : (⟨Cert.ReferenceIdeal.S100000x128, .f32⟩ : BufTy).Contents (Elt Ideal)}
    {b b' : (⟨Cert.ReferenceIdeal.S1x128, .f32⟩ : BufTy).Contents (Elt Ideal)}
    {w w' : (⟨Cert.ReferenceIdeal.S128x64, .f32⟩ : BufTy).Contents (Elt Ideal)} (ha : a = a') (hb : b = b') (hw : w = w') :
    Cert.GcnSpec.layer2 a b w = Cert.GcnSpec.layer2 a' b' w' := by
  subst ha hb hw; rfl

/-- What the first region leaves in its output array: the node features times the first weights. -/
theorem first_array (c : Dev nD) :
    (dat0 (V3 m ρ) c).arrAt 2 cfg0.N
      = Idealize.ShloMosaic.PlainProduct.rowsByCols (φ₁ := .f32) (φ₂ := .f32) (m ((c : Thread nD τ).loc main_arg0)) (m ((c : Thread nD τ).loc main_arg3)) :=
  (Cert.KernelIdeal.RegionValue.product_array (V3 m ρ) c).trans (product_congr (W3_arg0 m ρ c) (W3_arg3 m ρ c))

/-- What the second region leaves in its output array: the second dense map of the first layer's aggregate. -/
theorem second_array (c : Dev nD) :
    (dat1 (V5 m ρ) c).arrAt 3 cfg1.N
      = Cert.GcnSpec.layer2 (Cert.ReferenceIdeal.Chain.aggregate1 (F := Ideal)
          (Idealize.ShloMosaic.PlainProduct.rowsByCols (φ₁ := .f32) (φ₂ := .f32) (m ((c : Thread nD τ).loc main_arg0)) (m ((c : Thread nD τ).loc main_arg3))) (m ((c : Thread nD τ).loc main_arg1)) (m ((c : Thread nD τ).loc main_arg2)))
          (Cert.ReferenceIdeal.Read.val_main_v46 (F := Ideal) (m ((c : Thread nD τ).loc main_arg4))) (m ((c : Thread nD τ).loc main_arg5)) :=
  (Cert.KernelIdeal.RegionValue.layer2_array (V5 m ρ) c).trans
    (layer2_congr
      ((W5_v45 m ρ c).trans (congrArg (fun z => Cert.ReferenceIdeal.Chain.aggregate1 (F := Ideal) z (m ((c : Thread nD τ).loc main_arg1)) (m ((c : Thread nD τ).loc main_arg2))) (first_array m ρ c)))
      (W5_v46 m ρ c) (W5_arg5 m ρ c))

/-- The result buffer at the return holds `gcn` of the argument arrays. -/
theorem result_gcn (c : Dev nD) :
    W7 m ρ c (Proc.devRef .tc main_v63) = Cert.ReferenceIdeal.Chain.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W7_v63 m ρ c).trans
    (congrArg (fun z => Cert.ReferenceIdeal.Chain.aggregate2 (F := Ideal) z (m ((c : Thread nD τ).loc main_arg1)) (m ((c : Thread nD τ).loc main_arg2)) (m ((c : Thread nD τ).loc main_arg6))) (second_array m ρ c))

end Cert.KernelIdeal.HostValue

end
-- ==== Proof.lean ====
/-
  The certificate of a two-layer graph convolution whose two dense maps run as matrix-product kernels.

  Both programs compute, from node features `x`, an edge list, edge weights and the weights and biases of two
  layers, the function
      gcn = aggregate2 (layer2 (aggregate1 (x · W1)) b1 W2),
  where a layer's sparse part `aggregate` gathers rows at the edges' sources, scales row `e` by the edge's
  symmetric normalisation and sums the rows into the edges' targets (the second one adds the output bias), and the
  dense parts are the product `x · W1` and `max (a + b1) 0 · W2`, rows by columns.

  The reference applies the host's general dot product; the kernel computes each dense map 5000 rows at a time on a
  matrix unit, its operands narrowed to a shorter format on the way in. On the extended reals the narrowing is the
  identity and both products are the plain sum over the contracted axis; a row block of either dense map reads the
  same rows of its left operand only, so the twenty blocks are the rows of the whole product. The sparse parts are
  the same host operations of equal operands in both programs and are never opened. No step uses that an input is
  finite: sums of extended reals commute, and no product is distributed over a sum.

  The frames of the two kernel programs are the generated ones; the reference's frame is its generated run with the
  result dropped; the idealization rewrote nothing, so `preserves` is trivial.
-/
import proofs.«160680_j26714696581619_1_alg».proof.Defs
import proofs.«160680_j26714696581619_1_alg».proof.Proof.Gen.Kernel
import proofs.«160680_j26714696581619_1_alg».proof.Proof.Gen.Kernel.Skeleton
import proofs.«160680_j26714696581619_1_alg».proof.Proof.Gen.Kernel.Launch
import proofs.«160680_j26714696581619_1_alg».proof.Proof.Gen.Kernel.Points
import proofs.«160680_j26714696581619_1_alg».proof.Proof.Gen.Kernel.Frame
import proofs.«160680_j26714696581619_1_alg».proof.Proof.Gen.KernelIdeal
import proofs.«160680_j26714696581619_1_alg».proof.Proof.Gen.KernelIdeal.Skeleton
import proofs.«160680_j26714696581619_1_alg».proof.Proof.Gen.KernelIdeal.Launch
import proofs.«160680_j26714696581619_1_alg».proof.Proof.Gen.KernelIdeal.Points
import proofs.«160680_j26714696581619_1_alg».proof.Proof.Gen.KernelIdeal.Frame
import proofs.«160680_j26714696581619_1_alg».proof.Proof.Gen.ReferenceIdeal
import proofs.«160680_j26714696581619_1_alg».proof.Proof.Gen.Pre_finite_inputs
import proofs.«160680_j26714696581619_1_alg».proof.Proof.Gen.ReferenceIdeal.Run
import proofs.«160680_j26714696581619_1_alg».proof.Proof.Gen.ReferenceIdeal.Read
import proofs.«160680_j26714696581619_1_alg».proof.Proof.KernelRun
import proofs.«160680_j26714696581619_1_alg».proof.Proof.KernelGcn
import proofs.«160680_j26714696581619_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with `gcn` of the arguments in their result. -/
theorem algebraic : Cert.algebraic_KernelIdeal_ReferenceIdeal := by
  intro m ρ m' ρ' _ hagree
  refine ⟨fun c => Cert.ReferenceIdeal.Chain.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostValue.result_gcn m ρ c), (h c).2⟩)
      (Cert.KernelIdeal.RunValue.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6⟩ := hagree c
    rw [(h c).1, Cert.ReferenceIdeal.Read.val_main_v89_eq, Cert.ReferenceIdeal.Chain.v89_gcn, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
